-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S4096x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S262144x256 .f32) (main_arg1 : FVec F S256x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S262144x256 : Shape := ⟨2, ![262144, 256]⟩
abbrev S256x256 : Shape := ⟨2, ![256, 256]⟩
abbrev S4096x256 : Shape := ⟨2, ![4096, 256]⟩

abbrev nBuf : Space → Nat
  | .hbm => 5
  | .vmem => 5
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256x256, .f32⟩
  | .hbm, ⟨3, _⟩ => ⟨S256x256, .bf16⟩
  | .hbm, ⟨4, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S4096x256, .f32⟩
  | .local _ .vmem, ⟨4, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S262144x256, .f32⟩
  | .hbm, ⟨3, _⟩ => ⟨S256x256, .f32⟩
  | .hbm, ⟨4, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S262144x256_S256x256_S262144x256_1_1_0_0_n_n_wf : DotDims.WF S262144x256 S256x256 S262144x256 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf

class Facts : Prop extends Facts₀ where

variable [Facts]
-- ==== Proof.Spec.lean ====
import Idealize.ShloMosaic.Lib.ValueIdx
import Idealize.ShloMosaic.PureOps.Ideal.Laws

/-!
# The binarised linear layer, as one function of its two arguments

Both programs binarise the input `x : [262144, 256]` and the weight `w : [256, 256]` by the sign function
(`-1` below zero, `0` at zero, `1` above zero; on the extended reals `-∞ ↦ -1` and `+∞ ↦ 1`) and multiply
rows with rows: the entry at `(n, o)` is `∑ k < 256, sign x(n, k) · sign w(o, k)`. Nothing here needs the inputs
to be finite: every factor is one of `-1, 0, 1`, and both sides spell the very same sum in the same order.
-/

noncomputable section

namespace Cert.BinLinear

open Idealize.ShloMosaic Idealize.ShloMosaic.ValueIdx
open scoped BigOperators

/-- The input's and the result's shape. -/
abbrev SX : Shape := ⟨2, ![262144, 256]⟩
/-- The weight's shape. -/
abbrev SW : Shape := ⟨2, ![256, 256]⟩

/-- The result: at `(n, o)` the sum over the 256 input features of the signs' products. -/
def G (x : SX.Idx → EReal) (w : SW.Idx → EReal) : SX.Idx → EReal :=
  fun i => ∑ k : Fin 256, Ideal.sign (x (ix2 (n0 := 262144) (n1 := 256) (i 0) k)) * Ideal.sign (w (ix2 (n0 := 256) (n1 := 256) (i 1) k))

/-- `G` at an index given by its coordinates. -/
theorem G_apply (x : SX.Idx → EReal) (w : SW.Idx → EReal) (n : Fin 262144) (o : Fin 256) :
    G x w (ix2 n o) = ∑ k : Fin 256, Ideal.sign (x (ix2 n k)) * Ideal.sign (w (ix2 o k)) := rfl

end Cert.BinLinear

end
-- ==== Proof.RefSide.lean ====
import proofs.«101977_j19473381720569_2_alg».proof.Proof.Gen.ReferenceIdeal.Read
import proofs.«101977_j19473381720569_2_alg».proof.Proof.Spec

/-!
# The reference computes `G`

The reference takes the sign of each argument on the host and contracts the second axis of both with one
`dot_general`. Read at an index `i = (n, o)`, the product is the sum over `k < 256` of the left operand at `(n, k)`
times the right operand at `(o, k)`, and each operand there is the sign of the argument's element: the sum `G` names.
-/

noncomputable section

namespace Cert.ReferenceIdeal.RefValue

open Cert.ReferenceIdeal Cert.ReferenceIdeal.Gen Cert.ReferenceIdeal.Read
open Idealize.ShloMosaic Idealize.ShloMosaic.ValueIdx Cert.BinLinear
open scoped BigOperators

/-- The left operand is read in row `i 0`, at column `k`. -/
theorem lidx_eq (i : S262144x256.Idx) (k : Fin 256) : lidx_main_v2 i k = ix2 (n0 := 262144) (n1 := 256) (i 0) k :=
  funext fun a => by match a with | ⟨0, _⟩ => rfl | ⟨1, _⟩ => rfl

/-- The right operand is read in row `i 1`, at column `k`. -/
theorem ridx_eq (i : S262144x256.Idx) (k : Fin 256) : ridx_main_v2 i k = ix2 (n0 := 256) (n1 := 256) (i 1) k :=
  funext fun a => by match a with | ⟨0, _⟩ => rfl | ⟨1, _⟩ => rfl

/-- The reference's result, as a function of the two arguments, is `G`. -/
theorem ref_eq_G (x0 : (⟨S262144x256, .f32⟩ : BufTy).Contents (Elt Ideal)) (x1 : (⟨S256x256, .f32⟩ : BufTy).Contents (Elt Ideal)) :
    val_main_v2 (F := Ideal) x0 x1 = G x0 x1 := by
  funext i
  rw [val_main_v2_apply]
  refine Finset.sum_congr rfl fun k _ => ?_
  rw [val_main_v0_apply, val_main_v1_apply, Ideal.hostUnary_sign_def, Ideal.hostUnary_sign_def, lidx_eq, ridx_eq]

end Cert.ReferenceIdeal.RefValue

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.Payload.lean ====
import proofs.«101977_j19473381720569_2_alg».proof.Proof.Gen.KernelIdeal.Skeleton
import proofs.«101977_j19473381720569_2_alg».proof.Proof.Spec
import proofs.«101977_j19473381720569_2_alg».proof.Proof.LibDotRows
import Idealize.ShloMosaic.Lib.Pipeline.Value

/-!
# What the kernel's body computes from its two blocks

At one grid point the body loads a block `xb` of 4096 rows of the input and the whole binarised weight `wb`, takes the
sign of `xb` (written as a selection: where `|a| > 0` the constant `±1` with `a`'s sign, else `a` itself, which is then
`0`), and multiplies rows with rows on the matrix unit into a zero accumulator. At `(p, q)` of the block that is
`∑ k < 256, sign xb(p, k) · wb(q, k)`. When `xb` is rows `4096·t …` of the input `x` and `wb` is the sign of the weight `w`,
this is the whole-array function `G x w` at row `4096·t + p`, column `q`.
-/

noncomputable section

namespace Cert.KernelIdeal.KerValue

open Cert.KernelIdeal Cert.KernelIdeal.Gen
open Idealize.ShloMosaic Idealize.ShloMosaic.ValueIdx Cert.BinLinear
open scoped BigOperators

/-- The matrix unit contracts the second axis of both operands. -/
theorem dims_rows : Cert.LibDotRows.RowsRows dot_S4096x256_S256x256_S4096x256_1_1_0_0_n_n :=
  ⟨rfl, rfl, rfl, rfl, rfl, rfl⟩

/-- The body's stored value at `(p, q)`: the signs of row `p` of the input block against row `q` of the weight block. -/
theorem pay_apply (xb : FVec Ideal S4096x256 .f32) (wb : FVec Ideal S256x256 .bf16) (p : Fin 4096) (q : Fin 256) :
    k0_pay1 (F := Ideal) xb wb (ix2 p q) = ∑ k : Fin 256, Ideal.sign (xb (ix2 p k)) * wb (ix2 q k) := by
  unfold k0_pay1
  rw [shapeCast_self]
  refine (Cert.LibDotRows.matmul_zero_apply _ dims_rows none _ _ p q).trans ?_
  refine Finset.sum_congr rfl fun k _ => ?_
  exact congrArg (· * wb (ix2 q k)) (Ideal.jnp_sign_eq_sign_f32 (xb (ix2 p k)))

/-- One point's stored value is `G` at the array index the block position stands for: `xb` holds rows `4096·t …` of
    `x` (`hxb`), `wb` holds the sign of `w` (`hwb`), and `i` is row `4096·t + p`, column `q`. -/
theorem point_eq_G (x : SX.Idx → EReal) (w : SW.Idx → EReal) (xb : FVec Ideal S4096x256 .f32) (wb : FVec Ideal S256x256 .bf16)
    (t : Nat)
    (hxb : ∀ (y : S4096x256.Idx) (i : SX.Idx), (i 0).val = 4096 * t + (y 0).val → (i 1).val = (y 1).val → xb y = x i)
    (hwb : ∀ y : S256x256.Idx, wb y = Ideal.sign (w y))
    (p : Fin 4096) (q : Fin 256) (i : SX.Idx) (hi0 : (i 0).val = 4096 * t + p.val) (hi1 : (i 1).val = q.val) :
    k0_pay1 (F := Ideal) xb wb (ix2 p q) = G x w i := by
  rw [pay_apply]
  unfold G
  refine Finset.sum_congr rfl fun k _ => ?_
  rw [hxb (ix2 p k) (ix2 (n0 := 262144) (n1 := 256) (i 0) k) hi0 rfl, hwb (ix2 q k)]
  have hq : q = i 1 := Fin.ext hi1.symm
  rw [hq]

end Cert.KernelIdeal.KerValue

end
-- ==== Proof.KernelSide.lean ====
import proofs.«101977_j19473381720569_2_alg».proof.Proof.Gen.KernelIdeal.Value
import proofs.«101977_j19473381720569_2_alg».proof.Proof.Payload
import Idealize.ShloMosaic.Lib.Pipeline.Value
import Idealize.ShloMosaic.Lib.StableHlo.Run

/-!
# The kernel's result array is `G` of its arguments

The grid has 64 points. Point `t` reads rows `4096·t … 4096·t + 4095` of the input (all 256 columns), the whole
binarised weight — the array the host wrote before the region: the sign of the weight argument, narrowed to sixteen bits,
which over the extended reals changes nothing — and writes rows `4096·t …` of the result. What it writes is block `t`
of the one function `G` of the two arguments (the body's value at a block position is `G` at the array index that
position stands for), and the 64 row blocks cover the result array; so the array ends holding `G`.
-/

noncomputable section

namespace Cert.KernelIdeal.KerValue

open Cert.KernelIdeal Cert.KernelIdeal.Gen Cert.KernelIdeal.Value
open Idealize.ShloMosaic Idealize.ShloMosaic.TcCoe Idealize.SL.Sem Idealize.ShloMosaic.ValueIdx Cert.BinLinear
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps over the grid: the input and the result move down one row block per point, the weight stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array the region finds as its second operand: the host took the sign of the weight argument, element by
    element (the narrowing to bf16 is the identity on extended reals). -/
theorem weight_at_entry (c : Dev nD) :
    (V m c main_v1 : S256x256.Idx → EReal) = fun i => Ideal.sign ((m ((c : Thread nD τ).loc main_arg1) : S256x256.Idx → EReal) i) := by
  have e : (V m c main_v1 : S256x256.Idx → EReal)
      = truncf .bf16 (Host.sign (F := Ideal) (m ((c : Thread nD τ).loc main_arg1))) bitsLt_bf16_f32 := by
    dsimp only [Gen.V, Gen.hostOps0]; after_results
  rw [e]; rfl

/-- The input window's block at point `t` holds rows `4096·t …` of the input argument. -/
theorem input_block (c : Dev nD) (t : Fin cfg0.N) (y : S4096x256.Idx) (i : S262144x256.Idx)
    (h0 : (i 0).val = 4096 * t.val + (y 0).val) (h1 : (i 1).val = (y 1).val) :
    (iblk m c 0 t : Vec Ideal S4096x256 .f32) y = (m ((c : Thread nD τ).loc main_arg0) : S262144x256.Idx → EReal) i := by
  obtain ⟨e0, e1, -⟩ := index_maps t
  unfold iblk
  rw [View.read_apply]
  show V m c main_arg0 _ = _
  rw [V_main_arg0]
  congr 1
  funext a
  apply Fin.ext
  match a with
  | ⟨0, _⟩ => show win0_0.index t (0 : Fin 2) * 4096 + 1 * (y 0).val = (i 0).val; rw [e0, h0]; omega
  | ⟨1, _⟩ => show win0_0.index t (1 : Fin 2) * 256 + 1 * (y 1).val = (i 1).val; rw [e1, h1]; omega

/-- The weight window's block at every point is the whole binarised weight. -/
theorem weight_block (c : Dev nD) (t : Fin cfg0.N) (y : S256x256.Idx) :
    (iblk m c 1 t : Vec Ideal S256x256 .bf16) y = Ideal.sign ((m ((c : Thread nD τ).loc main_arg1) : S256x256.Idx → EReal) y) := by
  obtain ⟨-, -, e2, e3, -⟩ := index_maps t
  have hy : ((cfg0.win 1).blk t).view.emb y = y := by
    funext a
    apply Fin.ext
    match a with
    | ⟨0, _⟩ => show win0_1.index t (0 : Fin 2) * 256 + 1 * (y 0).val = (y 0).val; rw [e2]; omega
    | ⟨1, _⟩ => show win0_1.index t (1 : Fin 2) * 256 + 1 * (y 1).val = (y 1).val; rw [e3]; omega
  unfold iblk
  rw [View.read_apply, hy]
  show (V m c main_v1 : S256x256.Idx → EReal) y = _
  rw [weight_at_entry]

/-- What point `t` writes back is block `t` of `G` of the two arguments. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  rw [flushed2]
  unfold out0_2
  rw [View.canon_unit_zero zero_offsets]
  simp only [View.ld_unit_zero (S := S4096x256) zero_offsets, View.ld_unit_zero (S := S256x256) zero_offsets]
  obtain ⟨-, -, -, -, e4, e5⟩ := index_maps t
  funext j
  obtain ⟨p, q, rfl⟩ : ∃ (p : Fin 4096) (q : Fin 256), j = ix2 p q := ⟨j 0, j 1, eq_ix2 j⟩
  refine point_eq_G _ _ (iblk m c 0 t) (iblk m c 1 t) t.val (fun y i h0 h1 => input_block m c t y i h0 h1)
    (fun y => weight_block m c t y) p q _ ?_ ?_
  · show win0_2.index t (0 : Fin 2) * 4096 + 1 * p.val = 4096 * t.val + p.val; rw [e4]; omega
  · show win0_2.index t (1 : Fin 2) * 256 + 1 * q.val = q.val; rw [e5]; omega

/-- An index of the result array is in point `t`'s block iff each coordinate is in the block's range on its axis. -/
theorem mem_block (t : Fin cfg0.N) (i : S262144x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v2).slice (win0_2.rect t)).set ↔ _
  rw [View.set_slice_whole, Rect.mem_set_unit]
  exact Iff.rfl

/-- Row `r` of the result lies in the block of point `r / 4096`: the 64 row blocks cover the array. -/
theorem blocks_cover (i : S262144x256.Idx) :
    ∃ t : Fin cfg0.N, (cfg0.win 2).flush t = true ∧ i ∈ ((cfg0.win 2).blk t).view.set := by
  have hi0 : (i 0).val < 262144 := (i 0).isLt
  have hi1 : (i 1).val < 256 := (i 1).isLt
  have hN : cfg0.N = 64 := N_0
  have ht : (i 0).val / 4096 < cfg0.N := by rw [hN]; omega
  obtain ⟨-, -, -, -, e4, e5⟩ := index_maps ⟨(i 0).val / 4096, ht⟩
  refine ⟨⟨(i 0).val / 4096, ht⟩, flush0_2 _, ?_⟩
  rw [mem_block]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    rw [e4]; show (i 0).val / 4096 * 4096 ≤ (i 0).val ∧ (i 0).val < (i 0).val / 4096 * 4096 + 4096; omega
  | ⟨1, _⟩ =>
    show win0_2.index ⟨(i 0).val / 4096, ht⟩ (1 : Fin 2) * 256 ≤ (i 1).val
      ∧ (i 1).val < win0_2.index ⟨(i 0).val / 4096, ht⟩ (1 : Fin 2) * 256 + 256
    rw [e5]; omega

/-- The result array after the run is `G` of the two arguments. -/
theorem final_eq_G (c : Dev nD) :
    (dats m 0 c).arrAt 2 cfg0.N = G (m ((c : Thread nD τ).loc main_arg0)) (m ((c : Thread nD τ).loc main_arg1)) :=
  (dats m 0 c).arrAt_eq_of_cover 2 _ (fun t _ => flushed_eq m c t) blocks_cover

/-- The kernel's run: the result array ends at `G` of the arguments, which end unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq_G m c), (h c).2⟩) (run_blocks m ρ)

end Cert.KernelIdeal.KerValue

end
-- ==== Proof.lean ====
/-
  The binarised linear layer: a Pallas kernel against its jnp reference, over the extended reals.

  Both programs compute, for an input `x : [262144, 256]` and a weight `w : [256, 256]`,
      out(n, o) = ∑ k < 256, sign x(n, k) · sign w(o, k).
  The reference takes both signs on the host and contracts the second axis of both operands in one product. The kernel
  takes the weight's sign on the host, once, and walks the input in 64 blocks of 4096 rows; in each block it takes the
  sign with the vector unit — a selection between the constants `±1` by the sign of the element, kept only where the
  element is not zero — and multiplies rows with rows on the matrix unit into a zero accumulator. Changes of float format
  are the identity on extended reals, the selection IS the sign function at every extended real (the infinities included),
  and entry `(n, o)` of a rows-with-rows product depends on row `n` of the left operand only, so the 64 row blocks put
  together are the one product: the two results are the same sum, term by term. No finiteness of the inputs is used.

  The three frames are the programs' runs with the result dropped; the idealisation step recorded for the kernel (reading
  "1.0 carrying the sign bit of a" as the selection between `-1` and `1` by `a < 0`) is that rule's own statement.
-/
import proofs.«101977_j19473381720569_2_alg».proof.Defs
import proofs.«101977_j19473381720569_2_alg».proof.Proof.Gen.Kernel
import proofs.«101977_j19473381720569_2_alg».proof.Proof.Gen.Kernel.Skeleton
import proofs.«101977_j19473381720569_2_alg».proof.Proof.Gen.Kernel.Launch
import proofs.«101977_j19473381720569_2_alg».proof.Proof.Gen.Kernel.Points
import proofs.«101977_j19473381720569_2_alg».proof.Proof.Gen.Kernel.Frame
import proofs.«101977_j19473381720569_2_alg».proof.Proof.Gen.KernelIdeal
import proofs.«101977_j19473381720569_2_alg».proof.Proof.Gen.KernelIdeal.Skeleton
import proofs.«101977_j19473381720569_2_alg».proof.Proof.Gen.KernelIdeal.Launch
import proofs.«101977_j19473381720569_2_alg».proof.Proof.Gen.KernelIdeal.Points
import proofs.«101977_j19473381720569_2_alg».proof.Proof.Gen.KernelIdeal.Frame
import proofs.«101977_j19473381720569_2_alg».proof.Proof.Gen.ReferenceIdeal
import proofs.«101977_j19473381720569_2_alg».proof.Proof.Gen.KernelIdeal.Value
import proofs.«101977_j19473381720569_2_alg».proof.Proof.Gen.ReferenceIdeal.Run
import proofs.«101977_j19473381720569_2_alg».proof.Proof.Gen.ReferenceIdeal.Read
import proofs.«101977_j19473381720569_2_alg».proof.Proof.Gen.Pre_finite_inputs
import proofs.«101977_j19473381720569_2_alg».proof.Proof.RefSide
import proofs.«101977_j19473381720569_2_alg».proof.Proof.KernelSide
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The one recorded rewrite: `1.0` carrying an element's sign bit is `-1` below zero and `1` otherwise. -/
theorem preserves : Cert.preserves_Kernel_KernelIdeal :=
  IdealRules.sign_bit.statement Cert.KernelIdeal.S4096x256 .f32

/-- Both runs end with the result array at `G` of the (agreeing) arguments: the sum of the signs' products. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq_G, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
